-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 86
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its RESULT kept.  The program is four tiled regions among stretches of
  host operations; the buffer contents at each boundary are a fold from the launch memory, and after the last
  region every unscoped buffer holds the last boundary's contents.  Read there: the result buffer beside the six
  argument arrays.  What the last boundary's contents ARE, as a function of the arguments, is the business of
  the modules that import this one.
-/
import proofs.«123408_j10428180595499_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.HostBefore.lean ====
/-
  The host operations before the kernel's first region, read back.  They compute, from the edge list alone, the three
  things both graph layers use: the source node of every edge (the edge list's first row followed by one self loop per
  node), the target node of every edge (its second row followed by the self loops), and the edge weight
  d(source)·d(target) as a column, d the inverse square root of the in-degree where the degree is positive and zero
  elsewhere.  The reference program computes the same three by the same operations, so each is the reference's own
  stage of the edge list; and no operation here writes an argument array.

  The operations come in three stretches — up to the degree test and the inverse root; the selection "inverse root where
  the degree is positive, else zero", which is an outlined function whose operations read and write their buffers through
  a transport between equal types; and from there to the weights — and the weight is read stretch by stretch, each from
  the contents the stretch before left.
-/
import proofs.«123408_j10428180595499_1_alg».proof.Proof.Gen.KernelIdeal.Frame
import proofs.«123408_j10428180595499_1_alg».proof.Proof.ReferenceRead
import proofs.«123408_j10428180595499_1_alg».proof.Proof.LibStretch
import Idealize.ShloMosaic.Lib.StableHlo.Run

set_option maxRecDepth 16384

noncomputable section

namespace Cert.KernelIdeal.HostBefore

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## After the first stretch -/

theorem main_v3_at1 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results
  rfl

theorem main_v6_at1 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  dsimp only [hostOps0]
  after_results
  rfl

/-- Where the in-degree is positive. -/
theorem main_v12_at1 : W1 m ρ c (Proc.devRef .tc main_v12) = Cert.ReferenceIdeal.Read.val_main_v12 (F := Ideal) (m ((c : Thread nD τ).loc main_arg1)) := by
  show StableHlo.after hostOps0 (W0 m ρ c) (Proc.devRef .tc main_v12) = _
  dsimp only [hostOps0]
  after_results
  rfl

/-- The inverse square root of the in-degree raised to at least one. -/
theorem main_v15_at1 : W1 m ρ c (Proc.devRef .tc main_v15) = Cert.ReferenceIdeal.Read.val_main_v15 (F := Ideal) (m ((c : Thread nD τ).loc main_arg1)) := by
  show StableHlo.after hostOps0 (W0 m ρ c) (Proc.devRef .tc main_v15) = _
  dsimp only [hostOps0]
  after_results
  rfl

theorem main_cst_3_at1 : W1 m ρ c (Proc.devRef .tc main_cst_3) = Cert.ReferenceIdeal.Read.val_main_cst_3 (F := Ideal) := by
  show StableHlo.after hostOps0 (W0 m ρ c) (Proc.devRef .tc main_cst_3) = _
  dsimp only [hostOps0]
  after_results
  rfl

/-! ## After the outlined selection

A value passes between a plain buffer and the outlined function's typed name for it through a transport along an
equation between two types that are the same once the buffer's type is computed: such a transport is the identity. -/

theorem ofBuf_v12 (v : main_v12.ty.Contents (Elt Ideal)) : (TRef.of (sig := sig) (T := ⟨S100000, .i1⟩) main_v12).ofBuf v = v := eq_of_heq (cast_heq _ _)
theorem ofBuf_v15 (v : main_v15.ty.Contents (Elt Ideal)) : (TRef.of (sig := sig) (T := ⟨S100000, .f32⟩) main_v15).ofBuf v = v := eq_of_heq (cast_heq _ _)
theorem ofBuf_cst_3 (v : main_cst_3.ty.Contents (Elt Ideal)) : (TRef.of (sig := sig) (T := ⟨S_, .f32⟩) main_cst_3).ofBuf v = v := eq_of_heq (cast_heq _ _)
theorem toBuf_v16 (v : (⟨S100000, .f32⟩ : BufTy).Contents (Elt Ideal)) : (TRef.of (sig := sig) (T := ⟨S100000, .f32⟩) main_v16).toBuf v = v := eq_of_heq (cast_heq _ _)

set_option maxHeartbeats 4000000 in
/-- The inverse root where the degree is positive, zero elsewhere. -/
theorem main_v16_at2 : W2 m ρ c (Proc.devRef .tc main_v16) = Cert.ReferenceIdeal.Read.val_main_v16 (F := Ideal) (m ((c : Thread nD τ).loc main_arg1)) := by
  show StableHlo.after hostOps0_1 (W1 m ρ c) (Proc.devRef .tc main_v16) = _
  generalize hW : W1 m ρ c = Wa
  dsimp only [hostOps0_1]
  after_results_simp
  subst hW
  simp only [Cert.LibStretch.ofBuf_toBuf, ofBuf_v12, ofBuf_v15, ofBuf_cst_3, toBuf_v16]
  rw [main_v12_at1, main_v15_at1, main_cst_3_at1]
  rfl

theorem main_v3_at2 : W2 m ρ c (Proc.devRef .tc main_v3) = Cert.ReferenceIdeal.Read.val_main_v3 (F := Ideal) (m ((c : Thread nD τ).loc main_arg1)) := by
  show StableHlo.after hostOps0_1 (W1 m ρ c) (Proc.devRef .tc main_v3) = _
  dsimp only [hostOps0_1]
  after_results
  exact main_v3_at1 m ρ c

theorem main_v6_at2 : W2 m ρ c (Proc.devRef .tc main_v6) = Cert.ReferenceIdeal.Read.val_main_v6 (F := Ideal) (m ((c : Thread nD τ).loc main_arg1)) := by
  show StableHlo.after hostOps0_1 (W1 m ρ c) (Proc.devRef .tc main_v6) = _
  dsimp only [hostOps0_1]
  after_results
  exact main_v6_at1 m ρ c

/-! ## At the first region's entry -/

/-- Source node of every edge. -/
theorem src_eq : W3 m ρ c (Proc.devRef .tc main_v3) = Cert.ReferenceIdeal.Read.val_main_v3 (F := Ideal) (m ((c : Thread nD τ).loc main_arg1)) := by
  show StableHlo.after hostOps0_2 (StableHlo.after hostOps0_1 (StableHlo.after hostOps0 (W0 m ρ c))) (Proc.devRef .tc main_v3) = _
  dsimp only [hostOps0_2, hostOps0_1, hostOps0]
  after_results
  rfl

/-- Target node of every edge. -/
theorem dst_eq : W3 m ρ c (Proc.devRef .tc main_v6) = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  dsimp only [hostOps0_2, hostOps0_1, hostOps0]
  after_results
  rfl

set_option maxHeartbeats 4000000 in
/-- The edge weights, as a column: both gathers of the selected inverse roots, at the source and at the target nodes
    (a negative node number wrapped once), multiplied. -/
theorem norm_eq : W3 m ρ c (Proc.devRef .tc main_v32) = Cert.ReferenceIdeal.Read.val_main_v40 (F := Ideal) (m ((c : Thread nD τ).loc main_arg1)) := by
  show StableHlo.after hostOps0_2 (W2 m ρ c) (Proc.devRef .tc main_v32) = _
  generalize hW : W2 m ρ c = Wa
  dsimp only [hostOps0_2]
  after_results_simp
  subst hW
  rw [main_v16_at2, main_v3_at2, main_v6_at2]
  rfl

/-! ## The arguments -/

/-- No host operation before the first region writes `main_arg0`: there it still holds its launch contents. -/
theorem main_arg0_at3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results

/-- No host operation before the first region writes `main_arg2`: there it still holds its launch contents. -/
theorem main_arg2_at3 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0_2, hostOps0_1, hostOps0]
  after_results

/-- No host operation before the first region writes `main_arg3`: there it still holds its launch contents. -/
theorem main_arg3_at3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0_2, hostOps0_1, hostOps0]
  after_results

/-- No host operation before the first region writes `main_arg4`: there it still holds its launch contents. -/
theorem main_arg4_at3 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results

/-- No host operation before the first region writes `main_arg5`: there it still holds its launch contents. -/
theorem main_arg5_at3 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results

end Cert.KernelIdeal.HostBefore

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibProduct.lean ====
/-
  A matrix product as ONE function of its two factors, on the extended reals, for any extents.

  * `product x w` is the `[a, k] × [k, b]` product: entry `(i, j)` is the sum over the contracted coordinate `e` of
    `x (i, e) · w (e, j)`; `square h` multiplies every entry by itself.
  * `matmul_rounded_eq`: the matrix unit's product into a zero accumulator of two `f32` factors each rounded to a shorter
    float format on the way in (left factor's last axis against the right factor's first, no batch axis) is `product` of the
    unrounded factors at the ideal instance, where rounding is the identity.
  * `dotGeneral_eq`: the host's `dot_general` with the same dimension numbers is `product`.
  * `product_congr`, `product_square_congr`: two products (the second: of the left factors squared) agree at two indices
    when the rows of the left factors and the columns of the right factors they read agree — the step that turns "the block a
    grid point computes from a row block" into "the same rows of the whole product".

  Only regrouping of a finite sum is used; no finiteness of the entries is needed.
-/
import Idealize.ShloMosaic.Lib.ValueIdx
import Idealize.ShloMosaic.Lib.Pipeline.Value
import Idealize.ShloMosaic.PureOps.Ideal.Laws
import proofs.«123408_j10428180595499_1_alg».proof.Proof.LibRowMax

noncomputable section

namespace Cert.LibProduct

open Idealize.ShloMosaic Idealize.ShloMosaic.ValueIdx
variable {a k b : ℕ}

/-- The product of an `[a, k]` matrix and a `[k, b]` matrix over the extended reals. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

theorem product_apply (x : (⟨2, ![a, k]⟩ : Shape).Idx → EReal) (w : (⟨2, ![k, b]⟩ : Shape).Idx → EReal) (i : Fin a) (j : Fin b) :
    product x w (ix2 i j) = ∑ e : Fin k, x (ix2 i e) * w (ix2 e j) := rfl

/-- Every entry multiplied by itself. -/
def square {s : Shape} (h : s.Idx → EReal) : s.Idx → EReal := fun i => h i * h i

/-- The matrix unit's product of two factors rounded to a shorter format, into a zero accumulator, is the product. -/
theorem matmul_rounded_eq {φ₁ φ₂ : FTy} (wf : DotDims.WF ⟨2, ![a, k]⟩ ⟨2, ![k, b]⟩ ⟨2, ![a, b]⟩ [1] [0] [0] [1] [] [])
    (prec : Option ContractPrecision) (x : FVec Ideal ⟨2, ![a, k]⟩ .f32) (w : FVec Ideal ⟨2, ![k, b]⟩ .f32)
    (h₁ : φ₁.bits < FTy.f32.bits) (h₂ : φ₂.bits < FTy.f32.bits) :
    FloatOps.matmul (Cert.LibRowMax.plainDims a k b wf) prec (truncf φ₁ x h₁) (truncf φ₂ w h₂)
        (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf prec (truncf φ₁ x h₁) (truncf φ₂ w h₂) p q

/-- The host's product of two factors is the product. -/
theorem dotGeneral_eq (wf : DotDims.WF ⟨2, ![a, k]⟩ ⟨2, ![k, b]⟩ ⟨2, ![a, b]⟩ [1] [0] [0] [1] [] [])
    (prec : Option ContractPrecision) (sched : HostSchedule) (x : FVec Ideal ⟨2, ![a, k]⟩ .f32) (w : FVec Ideal ⟨2, ![k, b]⟩ .f32) :
    FloatOps.dotGeneral (Cert.LibRowMax.plainDims a k b wf) prec sched x w = product x w := by
  funext j
  obtain ⟨p, q, rfl⟩ : ∃ (p : Fin a) (q : Fin b), j = ix2 p q := ⟨j 0, j 1, eq_ix2 j⟩
  exact Cert.LibRowMax.dotGeneral_plain_apply wf prec sched x w p q

/-! ## Two products agree at two indices when the rows and the columns they read agree -/

theorem product_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product x w j = product X W i :=
  Finset.sum_congr rfl fun e _ => by rw [hx e, hw e]

theorem product_square_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product (square x) w j = product (square X) W i :=
  Finset.sum_congr rfl fun e _ => by
    show x (ix2 (j 0) e) * x (ix2 (j 0) e) * w (ix2 e (j 1)) = X (ix2 (i 0) e) * X (ix2 (i 0) e) * W (ix2 e (i 1))
    rw [hx e, hw e]

end Cert.LibProduct

end
-- ==== Proof.FirstProduct.lean ====
/-
  The first dense product: the kernel's first region multiplies the features, ten blocks of 10000 rows at a time, by the
  first weight matrix.  Its result array, after the region, is the product of the WHOLE feature array and the weights:
  an entry of a block product reads one row of the block and one column of the weights, and the ten row blocks tile the rows.
-/
import proofs.«123408_j10428180595499_1_alg».proof.Proof.Gen.KernelIdeal.Frame
import proofs.«123408_j10428180595499_1_alg».proof.Proof.LibProduct
import Idealize.ShloMosaic.Lib.Pipeline.Value
import Idealize.ShloMosaic.Lib.ValueIdx

set_option maxRecDepth 16384

noncomputable section

namespace Cert.KernelIdeal.FirstProduct

open Idealize.ShloMosaic Idealize.ShloMosaic.TcCoe Idealize.SL.Sem Idealize.ShloMosaic.ValueIdx
open Idealize.ShloMosaic.Pipeline (Dat)
open Cert.KernelIdeal Cert.KernelIdeal.Gen Cert.LibProduct

-- the buffer contents the region is entered with: a parameter, as in the region's own frame
variable (V : (c : Dev nD) → (b : Ref sig .tc) → Buf (Elt Ideal) ((c : Thread nD τ).loc b))

theorem hz : (![0, 0] : Fin 2 → Nat) = fun _ => 0 := funext fun a => by fin_cases a <;> rfl

/-- The whole product the region computes: all 100000 rows of the left factor against the right factor. -/
abbrev whole (c : Dev nD) : FVec Ideal S100000x128 .f32 :=
  product (a := 100000) (k := 128) (b := 128) (V c main_arg0) (V c main_arg2)

/-- What the body stores is the product of the two blocks it loaded: rounding on the way into the matrix unit is the
    identity on extended reals, and the accumulator starts at zero. -/
theorem pay_eq (x0 : Vec Ideal S10000x128 .f32) (x1 : Vec Ideal S128x128 .f32) :
    k0_pay1 (F := Ideal) x0 x1 = product (a := 10000) (k := 128) (b := 128) x0 x1 := by
  unfold k0_pay1
  exact matmul_rounded_eq dot_S10000x128_S128x128_S10000x128_1_0_0_1_n_n_wf none _ x1 _ _

/-- The index maps over the grid: the left factor's row block moves with the output's, which is the point's own number;
    the right factor is one block; nothing moves along the columns. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product: an entry of the block product reads row `r` of the
    point's row block, which is row `10000·t + r` of the left factor, and a whole column of the right factor. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [pay_eq]
  obtain ⟨e0, e1, e2, e3, e4, e5⟩ := idx_facts t
  funext j
  show product (a := 10000) (k := 128) (b := 128) (iblk0 V c 0 t) (iblk0 V c 1 t) j
    = product (a := 100000) (k := 128) (b := 128) (V c main_arg0) (V c main_arg2) (((cfg0.win 2).blk t).view.emb j)
  refine product_congr _ _ _ _ j _ (fun e => ?_) (fun e => ?_)
  · show V c main_arg0 (((cfg0.win 0).blk t).view.emb (ix2 (j 0) e)) = V c main_arg0 (ix2 ((((cfg0.win 2).blk t).view.emb j) 0) e)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * e.val = e.val; omega
  · show V c main_arg2 (((cfg0.win 1).blk t).view.emb (ix2 e (j 1))) = V c main_arg2 (ix2 e ((((cfg0.win 2).blk t).view.emb j) 1))
    refine congrArg (V c main_arg2) (funext fun a => Fin.ext ?_)
    match a with
    | ⟨0, _⟩ => show win0_1.index t (0 : Fin 2) * 128 + 1 * e.val = e.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v33).slice (win0_2.rect t)).set ↔ _
  rw [View.set_slice_whole, Rect.mem_set_unit]
  exact Iff.rfl

/-- Every row of the result lies in the block of the point numbered by its row divided by 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the region is the whole product of the two arrays the region was entered with. -/
theorem final (c : Dev nD) : (dat0 V c).arrAt 2 cfg0.N = whole V c :=
  (dat0 V c).arrAt_eq_of_cover 2 (whole V c) (fun t _ => flushed_eq V c t) (cover)

end Cert.KernelIdeal.FirstProduct

end
-- ==== Proof.LibBiasRow.lean ====
/-
  A bias row added to a matrix, with or without a clamp at zero, read at an entry given by its coordinates, for any
  extents a × b, on the extended reals, in the two spellings programs print.

  * The vector unit's: the matrix and a `[1, b]` row come through identity casts, the row is broadcast down the `a`
    rows and added; the clamp is the maximum with a splat of the zero word.
  * The host's: a `[1, b]` row broadcast down the `a` rows (`broadcast_in_dim` over both axes) and added; the clamp is
    the maximum with the zero word broadcast from a scalar.
  * A `[b]` vector reshaped to the row `[1, b]` is that vector placed as the row by `broadcast_in_dim`.
  Nothing is rearranged, so nothing needs finiteness.
-/
import proofs.«123408_j10428180595499_1_alg».proof.Proof.LibRowMax
import Idealize.ShloMosaic.Lib.ValueLayout
import Idealize.ShloMosaic.Lib.Pipeline.Value
import Idealize.ShloMosaic.PureOps.Ideal.Laws

noncomputable section

namespace Cert.LibBiasRow

open Idealize.ShloMosaic Idealize.ShloMosaic.ValueIdx Cert.LibRowMax

variable {α : Type} {a b : ℕ}

/-- The host's zero matrix (the zero word broadcast from a scalar) reads the zero word at every entry. -/
theorem host_zero_apply (h0 : (⟨0, ![]⟩ : Shape).BroadcastsInDim ⟨2, ![a, b]⟩ ![]) (p : Fin a) (q : Fin b) :
    broadcastInDim ⟨2, ![a, b]⟩ ![] h0 (constant (F := Ideal) ⟨0, ![]⟩ .f32 0x00000000#32) (ix2 p q)
      = Ideal.ofBits .f32 0x00000000#32 :=
  broadcastInDim_apply _ h0 _ (ix2 p q) ix0 (fun ax => ax.elim0)

/-- The vector unit's bias row added to a matrix, at `(p, q)`. -/
theorem vector_bias_apply (y : FVec Ideal ⟨2, ![a, b]⟩ .f32) (β : FVec Ideal ⟨2, ![1, b]⟩ .f32)
    (hβ : (⟨2, ![1, b]⟩ : Shape).ShapeCasts ⟨2, ![1, b]⟩) (hbc : (⟨2, ![1, b]⟩ : Shape).Broadcasts ⟨2, ![a, b]⟩)
    (p : Fin a) (q : Fin b) :
    addf y (broadcastTo ⟨2, ![a, b]⟩ (shapeCast ⟨2, ![1, b]⟩ β hβ) hbc) (ix2 p q) = y (ix2 p q) + β (ix2 (0 : Fin 1) q) := by
  rw [shapeCast_self]
  show y (ix2 p q) + broadcastTo ⟨2, ![a, b]⟩ β hbc (ix2 p q) = _
  rw [broadcastTo_1b_ab_apply β hbc p q]

/-- The vector unit's bias row added to a matrix and clamped at zero, at `(p, q)`. -/
theorem vector_bias_clamp_apply (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩)
    (p : Fin a) (q : Fin b) :
    maximumf (addf (shapeCast ⟨2, ![a, b]⟩ x hx) (broadcastTo ⟨2, ![a, b]⟩ (shapeCast ⟨2, ![1, b]⟩ β hβ) hbc))
        (broadcast ⟨2, ![a, b]⟩ (Scalar.ofBits (F := Ideal) .f32 0x00000000#32)) (ix2 p q)
      = max (x (ix2 p q) + β (ix2 (0 : Fin 1) q)) (Ideal.ofBits .f32 0x00000000#32) := by
  rw [shapeCast_self, shapeCast_self]
  show max (x (ix2 p q) + broadcastTo ⟨2, ![a, b]⟩ β hbc (ix2 p q)) (Ideal.ofBits .f32 0x00000000#32) = _
  rw [broadcastTo_1b_ab_apply β hbc p q]

/-- The host's bias row added to a matrix, at `(p, q)`. -/
theorem host_bias_apply (Y : FVec Ideal ⟨2, ![a, b]⟩ .f32) (β : FVec Ideal ⟨2, ![1, b]⟩ .f32)
    (h2 : (⟨2, ![1, b]⟩ : Shape).BroadcastsInDim ⟨2, ![a, b]⟩ ![0, 1]) (p : Fin a) (q : Fin b) :
    addf Y (broadcastInDim ⟨2, ![a, b]⟩ ![0, 1] h2 β) (ix2 p q) = Y (ix2 p q) + β (ix2 (0 : Fin 1) q) := by
  show Y (ix2 p q) + broadcastInDim ⟨2, ![a, b]⟩ ![0, 1] h2 β (ix2 p q) = _
  rw [broadcastInDim_1b_ab_apply β h2 p q]

/-- The host's bias row added to a matrix and clamped at zero, at `(p, q)`. -/
theorem host_bias_clamp_apply (X : FVec Ideal ⟨2, ![a, b]⟩ .f32) (β : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf X (broadcastInDim ⟨2, ![a, b]⟩ ![0, 1] h2 β))
        (broadcastInDim ⟨2, ![a, b]⟩ ![] h0 (constant (F := Ideal) ⟨0, ![]⟩ .f32 0x00000000#32)) (ix2 p q)
      = max (X (ix2 p q) + β (ix2 (0 : Fin 1) q)) (Ideal.ofBits .f32 0x00000000#32) := by
  show max (X (ix2 p q) + broadcastInDim ⟨2, ![a, b]⟩ ![0, 1] h2 β (ix2 p q))
      (broadcastInDim ⟨2, ![a, b]⟩ ![] h0 (constant (F := Ideal) ⟨0, ![]⟩ .f32 0x00000000#32) (ix2 p q)) = _
  rw [host_zero_apply h0 p q, broadcastInDim_1b_ab_apply β h2 p q]

/-- A `[b]` vector reshaped to the row `[1, b]` is the vector placed as that row. -/
theorem shapeCast_row_eq (v : (⟨1, ![b]⟩ : Shape).Idx → α) (hc : (⟨1, ![b]⟩ : Shape).ShapeCasts ⟨2, ![1, b]⟩)
    (h : (⟨1, ![b]⟩ : Shape).BroadcastsInDim ⟨2, ![1, b]⟩ ![1]) :
    shapeCast ⟨2, ![1, b]⟩ v hc = broadcastInDim ⟨2, ![1, b]⟩ ![1] h v := by
  funext j
  obtain ⟨u, q, rfl⟩ : ∃ (u : Fin 1) (q : Fin b), j = ix2 u q := ⟨j 0, j 1, eq_ix2 j⟩
  rw [broadcastInDim_b_1b_apply v h u q]
  exact shapeCast_a_1a_apply v hc u q

end Cert.LibBiasRow

end
-- ==== Proof.RowBias.lean ====
/-
  A bias row added to every row of a matrix, with or without a clamp at zero, as ONE function of the matrix and the row
  on the extended reals, for any extents; and that the two spellings programs print — the vector unit's (identity casts,
  the row broadcast down the rows, the clamp a maximum with a splat zero) and the host's (the row broadcast over both axes,
  the clamp a maximum with a broadcast scalar zero) — are that function.  Entry `(p, q)` reads entry `(p, q)` of the matrix
  and entry `q` of the row and nothing else, which is also why a block of rows of the result is the same function of the
  block of rows (`biasClamp_congr`, `biasAdd_congr`).  Nothing is rearranged, so nothing needs finiteness.
-/
import proofs.«123408_j10428180595499_1_alg».proof.Proof.LibBiasRow
import Idealize.ShloMosaic.Lib.ValueIdx

noncomputable section

namespace Cert.RowBias

open Idealize.ShloMosaic Idealize.ShloMosaic.ValueIdx Cert.LibBiasRow

variable {a a' b : ℕ}

/-- Matrix plus bias row. -/
def biasAdd (x : (⟨2, ![a, b]⟩ : Shape).Idx → EReal) (β : (⟨2, ![1, b]⟩ : Shape).Idx → EReal) :
    (⟨2, ![a, b]⟩ : Shape).Idx → EReal :=
  fun i => x i + β (ix2 (0 : Fin 1) (i 1))

/-- Matrix plus bias row, clamped below at the zero word's value. -/
def biasClamp (x : (⟨2, ![a, b]⟩ : Shape).Idx → EReal) (β : (⟨2, ![1, b]⟩ : Shape).Idx → EReal) :
    (⟨2, ![a, b]⟩ : Shape).Idx → EReal :=
  fun i => max (x i + β (ix2 (0 : Fin 1) (i 1))) (Ideal.ofBits .f32 0x00000000#32)

theorem biasAdd_congr (x : (⟨2, ![a, b]⟩ : Shape).Idx → EReal) (β β' : (⟨2, ![1, b]⟩ : Shape).Idx → EReal)
    (X : (⟨2, ![a', b]⟩ : Shape).Idx → EReal) (j : (⟨2, ![a, b]⟩ : Shape).Idx) (i : (⟨2, ![a', b]⟩ : Shape).Idx)
    (hx : x j = X i) (hβ : β (ix2 (0 : Fin 1) (j 1)) = β' (ix2 (0 : Fin 1) (i 1))) : biasAdd x β j = biasAdd X β' i := by
  unfold biasAdd; rw [hx, hβ]

theorem biasClamp_congr (x : (⟨2, ![a, b]⟩ : Shape).Idx → EReal) (β β' : (⟨2, ![1, b]⟩ : Shape).Idx → EReal)
    (X : (⟨2, ![a', b]⟩ : Shape).Idx → EReal) (j : (⟨2, ![a, b]⟩ : Shape).Idx) (i : (⟨2, ![a', b]⟩ : Shape).Idx)
    (hx : x j = X i) (hβ : β (ix2 (0 : Fin 1) (j 1)) = β' (ix2 (0 : Fin 1) (i 1))) : biasClamp x β j = biasClamp X β' i := by
  unfold biasClamp; rw [hx, hβ]

/-- The vector unit's spelling of the clamped sum. -/
theorem vector_clamp_eq (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩) :
    maximumf (addf (shapeCast ⟨2, ![a, b]⟩ x hx) (broadcastTo ⟨2, ![a, b]⟩ (shapeCast ⟨2, ![1, b]⟩ β hβ) hbc))
        (broadcast ⟨2, ![a, b]⟩ (Scalar.ofBits (F := Ideal) .f32 0x00000000#32))
      = biasClamp x β := by
  funext j
  obtain ⟨p, q, rfl⟩ : ∃ (p : Fin a) (q : Fin b), j = ix2 p q := ⟨j 0, j 1, eq_ix2 j⟩
  exact vector_bias_clamp_apply x β hx hβ hbc p q

/-- The vector unit's spelling of the plain sum. -/
theorem vector_add_eq (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩) :
    addf (shapeCast ⟨2, ![a, b]⟩ x hx) (broadcastTo ⟨2, ![a, b]⟩ (shapeCast ⟨2, ![1, b]⟩ β hβ) hbc) = biasAdd x β := by
  funext j
  obtain ⟨p, q, rfl⟩ : ∃ (p : Fin a) (q : Fin b), j = ix2 p q := ⟨j 0, j 1, eq_ix2 j⟩
  refine (vector_bias_apply (shapeCast ⟨2, ![a, b]⟩ x hx) β hβ hbc p q).trans ?_
  rw [shapeCast_self]
  rfl

/-- The host's spelling of the clamped sum. -/
theorem host_clamp_eq (X : FVec Ideal ⟨2, ![a, b]⟩ .f32) (β : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) :
    maximumf (addf X (broadcastInDim ⟨2, ![a, b]⟩ ![0, 1] h2 β))
        (broadcastInDim ⟨2, ![a, b]⟩ ![] h0 (constant (F := Ideal) ⟨0, ![]⟩ .f32 0x00000000#32))
      = biasClamp X β := by
  funext j
  obtain ⟨p, q, rfl⟩ : ∃ (p : Fin a) (q : Fin b), j = ix2 p q := ⟨j 0, j 1, eq_ix2 j⟩
  exact host_bias_clamp_apply X β h2 h0 p q

/-- The host's spelling of the plain sum. -/
theorem host_add_eq (Y : FVec Ideal ⟨2, ![a, b]⟩ .f32) (β : FVec Ideal ⟨2, ![1, b]⟩ .f32)
    (h2 : (⟨2, ![1, b]⟩ : Shape).BroadcastsInDim ⟨2, ![a, b]⟩ ![0, 1]) :
    addf Y (broadcastInDim ⟨2, ![a, b]⟩ ![0, 1] h2 β) = biasAdd Y β := by
  funext j
  obtain ⟨p, q, rfl⟩ : ∃ (p : Fin a) (q : Fin b), j = ix2 p q := ⟨j 0, j 1, eq_ix2 j⟩
  exact host_bias_apply Y β h2 p q

end Cert.RowBias

end
-- ==== Proof.FirstBias.lean ====
/-
  The first layer's bias and clamp: the kernel's second region adds the bias row to the aggregated features, ten blocks
  of 10000 rows at a time, and clamps at zero.  Its result array, after the region, is that function of the WHOLE
  aggregated array and the bias row: an entry reads the same entry of the matrix and one entry of the row, and the ten
  row blocks tile the rows.
-/
import proofs.«123408_j10428180595499_1_alg».proof.Proof.Gen.KernelIdeal.Frame
import proofs.«123408_j10428180595499_1_alg».proof.Proof.RowBias
import Idealize.ShloMosaic.Lib.Pipeline.Value
import Idealize.ShloMosaic.Lib.ValueIdx

set_option maxRecDepth 16384

noncomputable section

namespace Cert.KernelIdeal.FirstBias

open Idealize.ShloMosaic Idealize.ShloMosaic.TcCoe Idealize.SL.Sem Idealize.ShloMosaic.ValueIdx
open Idealize.ShloMosaic.Pipeline (Dat)
open Cert.KernelIdeal Cert.KernelIdeal.Gen Cert.RowBias

-- the buffer contents the region is entered with: a parameter, as in the region's own frame
variable (V : (c : Dev nD) → (b : Ref sig .tc) → Buf (Elt Ideal) ((c : Thread nD τ).loc b))

theorem hz : (![0, 0] : Fin 2 → Nat) = fun _ => 0 := funext fun a => by fin_cases a <;> rfl

/-- What the region computes of the whole arrays it is entered with: every row of the matrix plus the bias row. -/
abbrev whole (c : Dev nD) : FVec Ideal S100000x128 .f32 :=
  biasClamp (a := 100000) (b := 128) (V c main_v45) (V c main_v46)

/-- What the body stores is that function of the block of rows and the bias row it loaded. -/
theorem pay_eq (x0 : Vec Ideal S10000x128 .f32) (x1 : Vec Ideal S1x128 .f32) :
    k1_pay1 (F := Ideal) x0 x1 = biasClamp (a := 10000) (b := 128) x0 x1 := by
  unfold k1_pay1
  exact vector_clamp_eq x0 x1 _ _ _

/-- The index maps over the grid: the matrix's row block moves with the output's, which is the point's own number; the
    bias row is one block; nothing moves along the columns. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole result: entry `(r, q)` of the block reads entry `(r, q)` of the
    point's block of rows, which is entry `(10000·t + r, q)` of the matrix, and entry `q` of the bias row. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  rw [pay_eq]
  obtain ⟨e0, e1, e2, e3, e4, e5⟩ := idx_facts t
  funext j
  show biasClamp (a := 10000) (b := 128) (iblk1 V c 0 t) (iblk1 V c 1 t) j
    = biasClamp (a := 100000) (b := 128) (V c main_v45) (V c main_v46) (((cfg1.win 2).blk t).view.emb j)
  refine biasClamp_congr _ _ _ _ j _ ?_ ?_
  · show V c main_v45 (((cfg1.win 0).blk t).view.emb j) = V c main_v45 (((cfg1.win 2).blk t).view.emb j)
    refine congrArg (V c main_v45) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · show V c main_v46 (((cfg1.win 1).blk t).view.emb (ix2 (0 : Fin 1) (j 1))) = V c main_v46 (ix2 (0 : Fin 1) ((((cfg1.win 2).blk t).view.emb j) 1))
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the result array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Every row of the result lies in the block of the point numbered by its row divided by 10000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the region is that function of the two arrays the region was entered with. -/
theorem final (c : Dev nD) : (dat1 V c).arrAt 2 cfg1.N = whole V c :=
  (dat1 V c).arrAt_eq_of_cover 2 (whole V c) (fun t _ => flushed_eq V c t) (cover)

end Cert.KernelIdeal.FirstBias

end
-- ==== Proof.LayerOne.lean ====
/-
  The first graph layer of the kernel against the reference's, buffer by buffer.  The first region leaves the product of
  the features and the first weights, which is the reference's host product (both are the plain sum over the contracted
  coordinate).  The host operations that follow — gather the product's rows at the edges' source nodes, scale by the edge
  weights, add into the rows of the target nodes — are the reference's own, applied to equal operands, so their result is
  the reference's aggregation stage.  The bias vector reshaped to a row is the reference's row broadcast of it.  The
  second region adds that row to every row and clamps at zero, as the reference's add, broadcast and maximum do.
-/
import proofs.«123408_j10428180595499_1_alg».proof.Proof.Gen.KernelIdeal.Frame
import proofs.«123408_j10428180595499_1_alg».proof.Proof.ReferenceRead
import proofs.«123408_j10428180595499_1_alg».proof.Proof.HostBefore
import proofs.«123408_j10428180595499_1_alg».proof.Proof.FirstProduct
import proofs.«123408_j10428180595499_1_alg».proof.Proof.FirstBias
import proofs.«123408_j10428180595499_1_alg».proof.Proof.LibProduct
import proofs.«123408_j10428180595499_1_alg».proof.Proof.RowBias
import proofs.«123408_j10428180595499_1_alg».proof.Proof.LibBiasRow
import Idealize.ShloMosaic.Lib.StableHlo.Run

set_option maxRecDepth 16384

noncomputable section

namespace Cert.KernelIdeal.LayerOne

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The first region's result array is the reference's product of the features and the first weights. -/
theorem prod1 : W4 m ρ c (Proc.devRef .tc main_v33)
    = Cert.ReferenceIdeal.Read.val_main_v32 (F := Ideal) (m ((c : Thread nD τ).loc main_arg0)) (m ((c : Thread nD τ).loc main_arg2)) := by
  refine (W4_arr m ρ c 2).trans ?_
  rw [Cert.KernelIdeal.FirstProduct.final (V3 m ρ) c]
  show Cert.LibProduct.product (a := 100000) (k := 128) (b := 128) (W3 m ρ c (Proc.devRef .tc main_arg0)) (W3 m ρ c (Proc.devRef .tc main_arg2)) = _
  rw [HostBefore.main_arg0_at3, HostBefore.main_arg2_at3]
  unfold Cert.ReferenceIdeal.Read.val_main_v32
  exact (Cert.LibProduct.dotGeneral_eq Cert.ReferenceIdeal.Facts₀.dot_S100000x128_S128x128_S100000x128_1_0_0_1_n_n_wf none _ (m ((c : Thread nD τ).loc main_arg0)) (m ((c : Thread nD τ).loc main_arg2))).symm

set_option maxHeartbeats 4000000 in
/-- After the host operations between the first two regions, the aggregated features are the reference's. -/
theorem agg1 : W5 m ρ c (Proc.devRef .tc main_v45)
    = Cert.ReferenceIdeal.Read.val_main_v45 (F := Ideal) (m ((c : Thread nD τ).loc main_arg0)) (m ((c : Thread nD τ).loc main_arg1)) (m ((c : Thread nD τ).loc main_arg2)) := by
  show StableHlo.after hostOps1 (W4 m ρ c) (Proc.devRef .tc main_v45) = _
  dsimp only [hostOps1]
  after_results_simp
  rw [prod1 m ρ c, W4_of_ne m ρ c main_v3 (by decide), W4_of_ne m ρ c main_v6 (by decide), W4_of_ne m ρ c main_v32 (by decide),
    HostBefore.src_eq, HostBefore.dst_eq, HostBefore.norm_eq]
  rfl

/-- The first bias vector laid as a row is the reference's row of it. -/
theorem bias1 : W5 m ρ c (Proc.devRef .tc main_v46) = Cert.ReferenceIdeal.Read.val_main_v46 (F := Ideal) (m ((c : Thread nD τ).loc main_arg3)) := by
  show StableHlo.after hostOps1 (W4 m ρ c) (Proc.devRef .tc main_v46) = _
  dsimp only [hostOps1]
  after_results
  rw [W4_of_ne m ρ c main_arg3 (by decide), HostBefore.main_arg3_at3]
  unfold Cert.ReferenceIdeal.Read.val_main_v46
  exact Cert.LibBiasRow.shapeCast_row_eq (m ((c : Thread nD τ).loc main_arg3)) _ _

/-- The second region's result array is the reference's first layer output: aggregated features plus bias, clamped. -/
theorem out1 : W6 m ρ c (Proc.devRef .tc main_v47)
    = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  rw [Cert.KernelIdeal.FirstBias.final (V5 m ρ) c]
  show Cert.RowBias.biasClamp (a := 100000) (b := 128) (W5 m ρ c (Proc.devRef .tc main_v45)) (W5 m ρ c (Proc.devRef .tc main_v46)) = _
  rw [agg1, bias1]
  unfold Cert.ReferenceIdeal.Read.val_main_v49 Cert.ReferenceIdeal.Read.val_main_v48 Cert.ReferenceIdeal.Read.val_main_v47 Cert.ReferenceIdeal.Read.val_main_call1_v0 Cert.ReferenceIdeal.Read.val_main_call1_cst
  exact (Cert.RowBias.host_clamp_eq _ _ _ _).symm

end Cert.KernelIdeal.LayerOne

end
-- ==== Proof.SecondProduct.lean ====
/-
  The second dense product: the kernel's third region multiplies the first layer's output, ten blocks of 10000 rows at a
  time, by the second weight matrix.  Its result array, after the region, is the product of the WHOLE first-layer output
  and the weights: an entry of a block product reads one row of the block and one column of the weights, and the ten
  row blocks tile the rows.
-/
import proofs.«123408_j10428180595499_1_alg».proof.Proof.Gen.KernelIdeal.Frame
import proofs.«123408_j10428180595499_1_alg».proof.Proof.LibProduct
import Idealize.ShloMosaic.Lib.Pipeline.Value
import Idealize.ShloMosaic.Lib.ValueIdx

set_option maxRecDepth 16384

noncomputable section

namespace Cert.KernelIdeal.SecondProduct

open Idealize.ShloMosaic Idealize.ShloMosaic.TcCoe Idealize.SL.Sem Idealize.ShloMosaic.ValueIdx
open Idealize.ShloMosaic.Pipeline (Dat)
open Cert.KernelIdeal Cert.KernelIdeal.Gen Cert.LibProduct

-- the buffer contents the region is entered with: a parameter, as in the region's own frame
variable (V : (c : Dev nD) → (b : Ref sig .tc) → Buf (Elt Ideal) ((c : Thread nD τ).loc b))

theorem hz : (![0, 0] : Fin 2 → Nat) = fun _ => 0 := funext fun a => by fin_cases a <;> rfl

/-- The whole product the region computes: all 100000 rows of the left factor against the right factor. -/
abbrev whole (c : Dev nD) : FVec Ideal S100000x64 .f32 :=
  product (a := 100000) (k := 128) (b := 64) (V c main_v47) (V c main_arg4)

/-- What the body stores is the product of the two blocks it loaded: rounding on the way into the matrix unit is the
    identity on extended reals, and the accumulator starts at zero. -/
theorem pay_eq (x0 : Vec Ideal S10000x128 .f32) (x1 : Vec Ideal S128x64 .f32) :
    k2_pay1 (F := Ideal) x0 x1 = product (a := 10000) (k := 128) (b := 64) x0 x1 := by
  unfold k2_pay1
  rw [shapeCast_self]
  exact matmul_rounded_eq dot_S10000x128_S128x64_S10000x64_1_0_0_1_n_n_wf none _ x1 _ _

/-- The index maps over the grid: the left factor's row block moves with the output's, which is the point's own number;
    the right factor is one block; nothing moves along the columns. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product: an entry of the block product reads row `r` of the
    point's row block, which is row `10000·t + r` of the left factor, and a whole column of the right factor. -/
theorem flushed_eq (c : Dev nD) (t : Fin cfg2.N) :
    (dat2 V c).flushed 2 t = ((cfg2.win 2).blk t).view.read (Elt Ideal) (whole V c) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  rw [pay_eq]
  obtain ⟨e0, e1, e2, e3, e4, e5⟩ := idx_facts t
  funext j
  show product (a := 10000) (k := 128) (b := 64) (iblk2 V c 0 t) (iblk2 V c 1 t) j
    = product (a := 100000) (k := 128) (b := 64) (V c main_v47) (V c main_arg4) (((cfg2.win 2).blk t).view.emb j)
  refine product_congr _ _ _ _ j _ (fun e => ?_) (fun e => ?_)
  · show V c main_v47 (((cfg2.win 0).blk t).view.emb (ix2 (j 0) e)) = V c main_v47 (ix2 ((((cfg2.win 2).blk t).view.emb j) 0) e)
    refine congrArg (V c main_v47) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * e.val = e.val; omega
  · show V c main_arg4 (((cfg2.win 1).blk t).view.emb (ix2 e (j 1))) = V c main_arg4 (ix2 e ((((cfg2.win 2).blk t).view.emb j) 1))
    refine congrArg (V c main_arg4) (funext fun a => Fin.ext ?_)
    match a with
    | ⟨0, _⟩ => show win2_1.index t (0 : Fin 2) * 128 + 1 * e.val = e.val; omega
    | ⟨1, _⟩ => show win2_1.index t (1 : Fin 2) * 64 + 1 * (j 1).val = win2_2.index t (1 : Fin 2) * 64 + 1 * (j 1).val; omega

/-- An index of the result array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- Every row of the result lies in the block of the point numbered by its row divided by 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  obtain ⟨t, ht⟩ : ∃ t : Fin cfg2.N, t.val = (i 0).val / 10000 :=
    ⟨⟨(i 0).val / 10000, by show (i 0).val / 10000 < grid2.N; rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the region is the whole product of the two arrays the region was entered with. -/
theorem final (c : Dev nD) : (dat2 V c).arrAt 2 cfg2.N = whole V c :=
  (dat2 V c).arrAt_eq_of_cover 2 (whole V c) (fun t _ => flushed_eq V c t) (cover)

end Cert.KernelIdeal.SecondProduct

end
-- ==== Proof.SecondBias.lean ====
/-
  The second layer's bias: the kernel's last region adds the bias row to the aggregated features, ten blocks of 10000
  rows at a time.  Its result array — the program's result — is that sum of the WHOLE aggregated array and the bias row:
  an entry reads the same entry of the matrix and one entry of the row, and the ten row blocks tile the rows.
-/
import proofs.«123408_j10428180595499_1_alg».proof.Proof.Gen.KernelIdeal.Frame
import proofs.«123408_j10428180595499_1_alg».proof.Proof.RowBias
import Idealize.ShloMosaic.Lib.Pipeline.Value
import Idealize.ShloMosaic.Lib.ValueIdx

set_option maxRecDepth 16384

noncomputable section

namespace Cert.KernelIdeal.SecondBias

open Idealize.ShloMosaic Idealize.ShloMosaic.TcCoe Idealize.SL.Sem Idealize.ShloMosaic.ValueIdx
open Idealize.ShloMosaic.Pipeline (Dat)
open Cert.KernelIdeal Cert.KernelIdeal.Gen Cert.RowBias

-- the buffer contents the region is entered with: a parameter, as in the region's own frame
variable (V : (c : Dev nD) → (b : Ref sig .tc) → Buf (Elt Ideal) ((c : Thread nD τ).loc b))

theorem hz : (![0, 0] : Fin 2 → Nat) = fun _ => 0 := funext fun a => by fin_cases a <;> rfl

/-- What the region computes of the whole arrays it is entered with: every row of the matrix plus the bias row. -/
abbrev whole (c : Dev nD) : FVec Ideal S100000x64 .f32 :=
  biasAdd (a := 100000) (b := 64) (V c main_v60) (V c main_v61)

/-- What the body stores is that function of the block of rows and the bias row it loaded. -/
theorem pay_eq (x0 : Vec Ideal S10000x64 .f32) (x1 : Vec Ideal S1x64 .f32) :
    k3_pay1 (F := Ideal) x0 x1 = biasAdd (a := 10000) (b := 64) x0 x1 := by
  unfold k3_pay1
  exact vector_add_eq x0 x1 _ _ _

/-- The index maps over the grid: the matrix's row block moves with the output's, which is the point's own number; the
    bias row is one block; nothing moves along the columns. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole result: entry `(r, q)` of the block reads entry `(r, q)` of the
    point's block of rows, which is entry `(10000·t + r, q)` of the matrix, and entry `q` of the bias row. -/
theorem flushed_eq (c : Dev nD) (t : Fin cfg3.N) :
    (dat3 V c).flushed 2 t = ((cfg3.win 2).blk t).view.read (Elt Ideal) (whole V c) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  rw [pay_eq]
  obtain ⟨e0, e1, e2, e3, e4, e5⟩ := idx_facts t
  funext j
  show biasAdd (a := 10000) (b := 64) (iblk3 V c 0 t) (iblk3 V c 1 t) j
    = biasAdd (a := 100000) (b := 64) (V c main_v60) (V c main_v61) (((cfg3.win 2).blk t).view.emb j)
  refine biasAdd_congr _ _ _ _ j _ ?_ ?_
  · show V c main_v60 (((cfg3.win 0).blk t).view.emb j) = V c main_v60 (((cfg3.win 2).blk t).view.emb j)
    refine congrArg (V c main_v60) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  · show V c main_v61 (((cfg3.win 1).blk t).view.emb (ix2 (0 : Fin 1) (j 1))) = V c main_v61 (ix2 (0 : Fin 1) ((((cfg3.win 2).blk t).view.emb j) 1))
    refine congrArg (V c main_v61) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the result array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v62).slice (win3_2.rect t)).set ↔ _
  rw [View.set_slice_whole, Rect.mem_set_unit]
  exact Iff.rfl

/-- Every row of the result lies in the block of the point numbered by its row divided by 10000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  obtain ⟨t, ht⟩ : ∃ t : Fin cfg3.N, t.val = (i 0).val / 10000 :=
    ⟨⟨(i 0).val / 10000, by show (i 0).val / 10000 < grid3.N; rw [hN]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the region is that function of the two arrays the region was entered with. -/
theorem final (c : Dev nD) : (dat3 V c).arrAt 2 cfg3.N = whole V c :=
  (dat3 V c).arrAt_eq_of_cover 2 (whole V c) (fun t _ => flushed_eq V c t) (cover)

end Cert.KernelIdeal.SecondBias

end
-- ==== Proof.LayerTwo.lean ====
/-
  The second graph layer of the kernel against the reference's, buffer by buffer, and with it the program's result.  The
  edges' source and target nodes and the edge weights, computed before the first region, are written by nothing
  afterwards, so the second layer's host operations find them as the first layer's did.  The third region leaves the
  product of the first layer's output and the second weights — the reference's host product of equal operands; the host
  operations after it are the reference's second aggregation; the last region adds the second bias row, as the
  reference's add and broadcast do.
-/
import proofs.«123408_j10428180595499_1_alg».proof.Proof.Gen.KernelIdeal.Frame
import proofs.«123408_j10428180595499_1_alg».proof.Proof.ReferenceRead
import proofs.«123408_j10428180595499_1_alg».proof.Proof.HostBefore
import proofs.«123408_j10428180595499_1_alg».proof.Proof.LayerOne
import proofs.«123408_j10428180595499_1_alg».proof.Proof.SecondProduct
import proofs.«123408_j10428180595499_1_alg».proof.Proof.SecondBias
import proofs.«123408_j10428180595499_1_alg».proof.Proof.LibProduct
import proofs.«123408_j10428180595499_1_alg».proof.Proof.RowBias
import proofs.«123408_j10428180595499_1_alg».proof.Proof.LibBiasRow
import Idealize.ShloMosaic.Lib.StableHlo.Run

set_option maxRecDepth 16384

noncomputable section

namespace Cert.KernelIdeal.LayerTwo

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- `main_v3` is written by nothing between the first region's entry and the third region's exit. -/
theorem main_v3_at7 : W7 m ρ c (Proc.devRef .tc main_v3) = W3 m ρ c (Proc.devRef .tc main_v3) := by
  rw [W7_of_ne m ρ c main_v3 (by decide), W6_of_ne m ρ c main_v3 (by decide)]
  refine Eq.trans ?_ (W4_of_ne m ρ c main_v3 (by decide))
  show StableHlo.after hostOps1 (W4 m ρ c) (Proc.devRef .tc main_v3) = W4 m ρ c (Proc.devRef .tc main_v3)
  dsimp only [hostOps1]
  after_results

/-- `main_v6` is written by nothing between the first region's entry and the third region's exit. -/
theorem main_v6_at7 : W7 m ρ c (Proc.devRef .tc main_v6) = W3 m ρ c (Proc.devRef .tc main_v6) := by
  rw [W7_of_ne m ρ c main_v6 (by decide), W6_of_ne m ρ c main_v6 (by decide)]
  refine Eq.trans ?_ (W4_of_ne m ρ c main_v6 (by decide))
  show StableHlo.after hostOps1 (W4 m ρ c) (Proc.devRef .tc main_v6) = W4 m ρ c (Proc.devRef .tc main_v6)
  dsimp only [hostOps1]
  after_results

/-- `main_v32` is written by nothing between the first region's entry and the third region's exit. -/
theorem main_v32_at7 : W7 m ρ c (Proc.devRef .tc main_v32) = W3 m ρ c (Proc.devRef .tc main_v32) := by
  rw [W7_of_ne m ρ c main_v32 (by decide), W6_of_ne m ρ c main_v32 (by decide)]
  refine Eq.trans ?_ (W4_of_ne m ρ c main_v32 (by decide))
  show StableHlo.after hostOps1 (W4 m ρ c) (Proc.devRef .tc main_v32) = W4 m ρ c (Proc.devRef .tc main_v32)
  dsimp only [hostOps1]
  after_results

/-- `main_arg5` is written by nothing between the first region's entry and the third region's exit. -/
theorem main_arg5_at7 : W7 m ρ c (Proc.devRef .tc main_arg5) = W3 m ρ c (Proc.devRef .tc main_arg5) := by
  rw [W7_of_ne m ρ c main_arg5 (by decide), W6_of_ne m ρ c main_arg5 (by decide)]
  refine Eq.trans ?_ (W4_of_ne m ρ c main_arg5 (by decide))
  show StableHlo.after hostOps1 (W4 m ρ c) (Proc.devRef .tc main_arg5) = W4 m ρ c (Proc.devRef .tc main_arg5)
  dsimp only [hostOps1]
  after_results

/-- The second weight matrix is as launched when the third region is entered. -/
theorem main_arg4_at6 : W6 m ρ c (Proc.devRef .tc main_arg4) = m ((c : Thread nD τ).loc main_arg4) := by
  rw [W6_of_ne m ρ c main_arg4 (by decide)]
  show StableHlo.after hostOps1 (W4 m ρ c) (Proc.devRef .tc main_arg4) = _
  dsimp only [hostOps1]
  after_results
  rw [W4_of_ne m ρ c main_arg4 (by decide)]
  exact HostBefore.main_arg4_at3 m ρ c

/-- The third region's result array is the reference's product of the first layer's output and the second weights. -/
theorem prod2 : W7 m ρ c (Proc.devRef .tc main_v48)
    = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [Cert.KernelIdeal.SecondProduct.final (V6 m ρ) c]
  show Cert.LibProduct.product (a := 100000) (k := 128) (b := 64) (W6 m ρ c (Proc.devRef .tc main_v47)) (W6 m ρ c (Proc.devRef .tc main_arg4)) = _
  rw [LayerOne.out1, main_arg4_at6]
  unfold Cert.ReferenceIdeal.Read.val_main_v50
  exact (Cert.LibProduct.dotGeneral_eq Cert.ReferenceIdeal.Facts₀.dot_S100000x128_S128x64_S100000x64_1_0_0_1_n_n_wf none _ _ (m ((c : Thread nD τ).loc main_arg4))).symm

set_option maxHeartbeats 4000000 in
/-- After the host operations between the last two regions, the aggregated features are the reference's. -/
theorem agg2 : W8 m ρ c (Proc.devRef .tc main_v60)
    = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W7 m ρ c) (Proc.devRef .tc main_v60) = _
  dsimp only [hostOps3]
  after_results_simp
  rw [prod2 m ρ c, main_v3_at7, main_v6_at7, main_v32_at7, HostBefore.src_eq, HostBefore.dst_eq, HostBefore.norm_eq]
  rfl

/-- The second bias vector laid as a row is the reference's row of it. -/
theorem bias2 : W8 m ρ c (Proc.devRef .tc main_v61) = Cert.ReferenceIdeal.Read.val_main_v64 (F := Ideal) (m ((c : Thread nD τ).loc main_arg5)) := by
  show StableHlo.after hostOps3 (W7 m ρ c) (Proc.devRef .tc main_v61) = _
  dsimp only [hostOps3]
  after_results
  rw [main_arg5_at7, HostBefore.main_arg5_at3]
  unfold Cert.ReferenceIdeal.Read.val_main_v64
  exact Cert.LibBiasRow.shapeCast_row_eq (m ((c : Thread nD τ).loc main_arg5)) _ _

/-- THE RESULT: after the last region the result buffer holds the reference's result stage of the six arguments. -/
theorem result_eq : W9 m ρ c (Proc.devRef .tc main_v62)
    = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  rw [Cert.KernelIdeal.SecondBias.final (V8 m ρ) c]
  show Cert.RowBias.biasAdd (a := 100000) (b := 64) (W8 m ρ c (Proc.devRef .tc main_v60)) (W8 m ρ c (Proc.devRef .tc main_v61)) = _
  rw [agg2, bias2]
  unfold Cert.ReferenceIdeal.Read.val_main_v66 Cert.ReferenceIdeal.Read.val_main_v65
  exact (Cert.RowBias.host_add_eq _ _ _).symm

end Cert.KernelIdeal.LayerTwo

end
-- ==== Proof.lean ====
/-
  A two-layer graph convolution on 100000 nodes and 1600000 edges (plus one self loop per node): per layer, features
  times a weight matrix, then for every node the sum over its incoming edges of the source node's row scaled by
  d(source)·d(target) — d the inverse square root of the in-degree —, then a bias row, and after the first layer a clamp
  at zero.  The kernel computes the two dense products and the two bias passes in four tiled regions (ten blocks of
  10000 rows each) and leaves degree, edge weights, gather and scatter-add to host operations; the reference does
  everything by host operations.

  On the extended reals the two agree entry by entry, and no finiteness of the inputs is used: a block product into a
  zero accumulator is the plain sum over the contracted coordinate, which is what the host product is, and rounding
  on the way into the matrix unit is the identity; a bias row added (and clamped) entry by entry is the same function
  in both spellings; the row blocks tile the rows; and every host operation between the regions is the reference's own
  operation applied to equal operands.  So the kernel's result buffer ends at the reference's result term of the
  same six arguments.

  The idealization rewrote nothing, so `preserves` is `True`.  The three frame claims are the generated frames (the
  reference's: its run with the result dropped).
-/
import proofs.«123408_j10428180595499_1_alg».proof.Defs
import proofs.«123408_j10428180595499_1_alg».proof.Proof.Gen.Kernel
import proofs.«123408_j10428180595499_1_alg».proof.Proof.Gen.Kernel.Skeleton
import proofs.«123408_j10428180595499_1_alg».proof.Proof.Gen.Kernel.Launch
import proofs.«123408_j10428180595499_1_alg».proof.Proof.Gen.Kernel.Points
import proofs.«123408_j10428180595499_1_alg».proof.Proof.Gen.Kernel.Frame
import proofs.«123408_j10428180595499_1_alg».proof.Proof.Gen.KernelIdeal
import proofs.«123408_j10428180595499_1_alg».proof.Proof.Gen.KernelIdeal.Skeleton
import proofs.«123408_j10428180595499_1_alg».proof.Proof.Gen.KernelIdeal.Launch
import proofs.«123408_j10428180595499_1_alg».proof.Proof.Gen.KernelIdeal.Points
import proofs.«123408_j10428180595499_1_alg».proof.Proof.Gen.KernelIdeal.Frame
import proofs.«123408_j10428180595499_1_alg».proof.Proof.Gen.ReferenceIdeal
import proofs.«123408_j10428180595499_1_alg».proof.Proof.Gen.Pre_finite_inputs
import proofs.«123408_j10428180595499_1_alg».proof.Proof.KernelRun
import proofs.«123408_j10428180595499_1_alg».proof.Proof.ReferenceRun
import proofs.«123408_j10428180595499_1_alg».proof.Proof.ReferenceRead
import proofs.«123408_j10428180595499_1_alg».proof.Proof.LayerTwo
import Idealize.ShloMosaic.Adequacy
import Idealize.ShloMosaic.Init

noncomputable section

namespace Cert.Proof

open Idealize.ShloMosaic Idealize.ShloMosaic.TcCoe Idealize.SL.Sem

/-- From memories that agree on the six arguments both idealized programs run, and the reference's result term is the
    contents the kernel's result buffer ends with. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W9 m ρ c (Proc.devRef .tc Cert.KernelIdeal.main_v62),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, (hagree c).1, (hagree c).2.1, (hagree c).2.2.1, (hagree c).2.2.2.1,
    (hagree c).2.2.2.2.1, (hagree c).2.2.2.2.2]
  exact (Cert.KernelIdeal.LayerTwo.result_eq m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
